-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x2048 : Shape := ⟨2, ![1024, 2048]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16x2048x1024 .f32) (main_arg1 : FVec F S16x2048x1024 .f32) (main_arg2 : FVec F S1024x2048 .f32) (main_arg3 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16x2048x1024 : Shape := ⟨3, ![16, 2048, 1024]⟩
abbrev S1024x2048 : Shape := ⟨2, ![1024, 2048]⟩
abbrev S1024 : Shape := ⟨1, ![1024]⟩
abbrev S2048x1024 : Shape := ⟨2, ![2048, 1024]⟩
abbrev S16x2048x2048 : Shape := ⟨3, ![16, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024x1024 : Shape := ⟨2, ![1024, 1024]⟩
abbrev S1x1024 : Shape := ⟨2, ![1, 1024]⟩

abbrev nBuf : Space → Nat
  | .hbm => 9
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x2048, .f32⟩
  | .hbm, ⟨3, _⟩ => ⟨S1024, .f32⟩
  | .hbm, ⟨4, _⟩ => ⟨S16x2048x1024, .bf16⟩
  | .hbm, ⟨5, _⟩ => ⟨S2048x1024, .f32⟩
  | .hbm, ⟨6, _⟩ => ⟨S2048x1024, .bf16⟩
  | .hbm, ⟨7, _⟩ => ⟨S16x2048x2048, .f32⟩
  | .hbm, ⟨8, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .bf16⟩
  | .local _ .vmem, ⟨3, _⟩ => ⟨S1x2048x1024, .bf16⟩
  | .local _ .vmem, ⟨4, _⟩ => ⟨S2048x1024, .bf16⟩
  | .local _ .vmem, ⟨5, _⟩ => ⟨S1024, .f32⟩
  | .local _ .vmem, ⟨6, _⟩ => ⟨S1x256x2048, .f32⟩
  | .local _ .vmem, ⟨7, _⟩ => ⟨S1x256x2048, .f32⟩
  | .local _ .vmem, ⟨8, _⟩ => ⟨S1x256x1024, .f32⟩
  | .local _ .vmem, ⟨9, _⟩ => ⟨S1x256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  transposes_S1024x2048_S2048x1024_1_0 : S1024x2048.Transposes [1, 0] S2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S2048x1024_S1024x1024_0_0 : ∀ a, (![0, 0] : Fin 2 → Nat) a + S1024x1024.size a ≤ S2048x1024.size a
  h_S1024x1024 : 0 < S1024x1024.numel
  shapeCasts_S1024x1024_S1024x1024 : S1024x1024.ShapeCasts S1024x1024
  inb_S2048x1024_S1024x1024_1024_0 : ∀ a, (![1024, 0] : Fin 2 → Nat) a + S1024x1024.size a ≤ S2048x1024.size a
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  shapeCasts_S256x1024_S1x256x1024 : S256x1024.ShapeCasts S1x256x1024
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x2048x1024.size a
  hwx0_0 : ∀ i : grid0.Coords, EltTy.bits .f32 = 32 ∨ (Rect.block (s := S16x2048x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S16x2048x1024.size a
  hwx0_1 : ∀ i : grid0.Coords, EltTy.bits .bf16 = 32 ∨ (Rect.block (s := S16x2048x1024) S1x2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S16x2048x2048.size a
  hwx0_4 : ∀ i : grid0.Coords, EltTy.bits .f32 = 32 ∨ (Rect.block (s := S16x2048x2048) S1x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S16x2048x1024.size a
  hwx0_5 : ∀ i : grid0.Coords, EltTy.bits .f32 = 32 ∨ (Rect.block (s := S16x2048x1024) S1x256x1024.size (cc0_transform_5 i) (hinb0_5 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x256x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S1024x2048 : Shape := ⟨2, ![1024, 2048]⟩
abbrev S1024 : Shape := ⟨1, ![1024]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x2048, .f32⟩
  | .hbm, ⟨3, _⟩ => ⟨S1024, .f32⟩
  | .hbm, ⟨4, _⟩ => ⟨S16x2048x2048, .f32⟩
  | .hbm, ⟨5, _⟩ => ⟨S_, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S16x2048x1, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S16x2048x2048, .f32⟩
  | .hbm, ⟨18, _⟩ => ⟨S16x2048x2048, .f32⟩
  | .hbm, ⟨19, _⟩ => ⟨S16x2048x1024, .f32⟩
  | .hbm, ⟨20, _⟩ => ⟨S16x2048x2048, .f32⟩
  | .hbm, ⟨21, _⟩ => ⟨S16x2048x1024, .f32⟩
  | .hbm, ⟨22, _⟩ => ⟨S1x1x1024, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  concatenates_S16x2048x1024_S16x2048x1024_S16x2048x2048_d2 : Shape.Concatenates [S16x2048x1024, S16x2048x1024] S16x2048x2048 2
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]
  dot_S16x2048x2048_S1024x2048_S16x2048x1024_2_1_01_0_n_n_wf : DotDims.WF S16x2048x2048 S1024x2048 S16x2048x1024 [2] [1] [0, 1] [0] [] []

variable [Facts₀]

def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf
def dot_S16x2048x2048_S1024x2048_S16x2048x1024_2_1_01_0_n_n : DotDims S16x2048x2048 S1024x2048 S16x2048x1024 where
  lhsContracting := [2]
  rhsContracting := [1]
  lhsNonContracting := [0, 1]
  rhsNonContracting := [0]
  lhsBatch := []
  rhsBatch := []
  wf := dot_S16x2048x2048_S1024x2048_S16x2048x1024_2_1_01_0_n_n_wf

class Facts : Prop extends Facts₀ where

variable [Facts]
-- ==== Proof.Spec.lean ====
/-
  Attention with a linear read-out, row by row, over the extended reals.

  For one query row `q` (1024 entries) and one context matrix `c` (2048 rows of 1024 entries):
    score s   = ∑ d, q d · c s d
    weight s  = exp (score s − M) / ∑ s', exp (score s' − M),  M the largest score (from −∞)
    mixed d   = ∑ s, weight s · c s d
    result e  = tanh ((∑ d, mixed d · w₁ d e + ∑ d, q d · w₂ d e) + bias e)
  where `w₁`, `w₂` are the two halves of the read-out matrix: the half that meets the mixed row and the half
  that meets the query row. The two whole arrays `weightsArr` and `resultArr` read these at (batch, row, ·).
  The one law used later is that a sum over 2048 positions is the sum over the first 1024 plus the sum over
  the last 1024 (`sum_halves`); it holds in any commutative monoid, so no finiteness is needed.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- The value the running maximum starts from: the f32 word of −∞. -/
abbrev floor : EReal := Ideal.ofBits .f32 0xFF800000#32

/-- That word denotes the least extended real. -/
theorem floor_eq_bot : floor = ⊥ := by simp [floor, Ideal.ofBits, Ideal.ieee]

/-- So taking the maximum with it changes nothing. -/
theorem max_floor (y : EReal) : max floor y = y := by rw [floor_eq_bot]; exact bot_sup_eq y

/-- The largest of 2048 values, from −∞. -/
def rowMax (x : Fin 2048 → EReal) : EReal := (Finset.univ : Finset (Fin 2048)).fold max floor x

/-- The softmax weight of position `s` among 2048 scores. -/
def soft (x : Fin 2048 → EReal) (s : Fin 2048) : EReal :=
  Ideal.div (Ideal.exp (x s - rowMax x)) (∑ s' : Fin 2048, Ideal.exp (x s' - rowMax x))

/-- The score of context row `s` against the query row. -/
def score (q : Fin 1024 → EReal) (c : Fin 2048 → Fin 1024 → EReal) (s : Fin 2048) : EReal :=
  ∑ d : Fin 1024, q d * c s d

/-- The attention weight of context row `s`. -/
def weight (q : Fin 1024 → EReal) (c : Fin 2048 → Fin 1024 → EReal) (s : Fin 2048) : EReal :=
  soft (score q c) s

/-- The context rows mixed by their weights, at column `d`. -/
def mixed (q : Fin 1024 → EReal) (c : Fin 2048 → Fin 1024 → EReal) (d : Fin 1024) : EReal :=
  ∑ s : Fin 2048, weight q c s * c s d

/-- The read-out at column `e`. -/
def readout (q : Fin 1024 → EReal) (c : Fin 2048 → Fin 1024 → EReal) (w₁ w₂ : Fin 1024 → Fin 1024 → EReal)
    (bias : Fin 1024 → EReal) (e : Fin 1024) : EReal :=
  Ideal.tanh ((∑ d : Fin 1024, mixed q c d * w₁ d e + ∑ d : Fin 1024, q d * w₂ d e) + bias e)

/-! ## The whole arrays -/

abbrev Arr3 : Type := (⟨3, ![16, 2048, 1024]⟩ : Shape).Idx → EReal

/-- Row `t` of batch `b` of the query array. -/
def qRow (Q : Arr3) (b : Fin 16) (t : Fin 2048) : Fin 1024 → EReal := fun d => Q (ix3 b t d)

/-- Batch `b` of the context array, as a matrix. -/
def cMat (C : Arr3) (b : Fin 16) : Fin 2048 → Fin 1024 → EReal := fun s d => C (ix3 b s d)

/-- The first 1024 columns of the read-out matrix, transposed. -/
def wLow (W : (⟨2, ![1024, 2048]⟩ : Shape).Idx → EReal) : Fin 1024 → Fin 1024 → EReal :=
  fun d e => W (ix2 e (⟨d.val, by omega⟩ : Fin 2048))

/-- The last 1024 columns of the read-out matrix, transposed. -/
def wHigh (W : (⟨2, ![1024, 2048]⟩ : Shape).Idx → EReal) : Fin 1024 → Fin 1024 → EReal :=
  fun d e => W (ix2 e (⟨1024 + d.val, by omega⟩ : Fin 2048))

/-- The attention weights, as one array of the two inputs. -/
def weightsArr (Q C : Arr3) : (⟨3, ![16, 2048, 2048]⟩ : Shape).Idx → EReal :=
  fun i => weight (qRow Q (i 0) (i 1)) (cMat C (i 0)) (i 2)

/-- The read-out, as one array of the four inputs. -/
def resultArr (Q C : Arr3) (W : (⟨2, ![1024, 2048]⟩ : Shape).Idx → EReal) (B : (⟨1, ![1024]⟩ : Shape).Idx → EReal) : Arr3 :=
  fun i => readout (qRow Q (i 0) (i 1)) (cMat C (i 0)) (wLow W) (wHigh W) (fun e => B (ix1 e)) (i 2)

/-! ## A sum over 2048 positions, split in the middle -/

theorem sum_halves (f : Fin 2048 → EReal) :
    ∑ k : Fin 2048, f k
      = ∑ d : Fin 1024, f (⟨d.val, by omega⟩ : Fin 2048) + ∑ d : Fin 1024, f (⟨1024 + d.val, by omega⟩ : Fin 2048) :=
  Fin.sum_univ_add (a := 1024) (b := 1024) f

end Cert.Attention

end
-- ==== Proof.LibMatSum.lean ====
/-
  A matrix product read at an entry, at the ideal values, for any dimension record that contracts the left
  operand's columns with the right operand's rows (no batch axis): the entry `(a, b)` of `A · B` is
  `∑ c, A (a, c) · B (c, b)`, for the host's product and for the matrix unit's product into a zero accumulator alike.
  (The record's well-formedness witness is a proposition, so every such record is the library's plain one.)
-/
import Idealize.ShloMosaic.Lib.StackMember
import Idealize.ShloMosaic.Lib.ValueIdx
import Idealize.ShloMosaic.PureOps.Ideal.Laws

noncomputable section

namespace Idealize.ShloMosaic.MatSum

open Idealize.ShloMosaic Idealize.ShloMosaic.ValueIdx

variable {m k n : Nat} {φ₁ φ₂ : FTy}

/-- A record with the plain product's dimension numbers is the plain record. -/
theorem eq_plain (w : DotDims.WF ⟨2, ![m, k]⟩ ⟨2, ![k, n]⟩ ⟨2, ![m, n]⟩ [1] [0] [0] [1] [] []) :
    (⟨[1], [0], [0], [1], [], [], w⟩ : DotDims ⟨2, ![m, k]⟩ ⟨2, ![k, n]⟩ ⟨2, ![m, n]⟩) = DotDims.plain m k n := rfl

/-- The plain record's operand indices at output `(a, b)` and contraction position `c`. -/
theorem plain_lhsIdx (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

theorem plain_rhsIdx (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The host's product at an entry. -/
theorem dotGeneral_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  rw [eq_plain]
  exact StackMember.dotGeneral_plain_apply prec A B a b

/-- The matrix unit's product into a zero accumulator at an entry. -/
theorem matmul_zero_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (⟨2, ![m, n]⟩ : Shape) .f32 0x00000000#32) (ix2 a b)
      = ∑ c : Fin k, A (ix2 a c) * B (ix2 c b) := by
  rw [eq_plain]
  show FloatOps.matmul _ prec A B (constant _ .f32 0x00000000#32) (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Idealize.ShloMosaic.MatSum

end
-- ==== Proof.KernelRows.lean ====
/-
  The kernel body's two stored values, read entry by entry over its loaded blocks: with `P0` the query block
  (one batch, 256 rows), `P1` the context block (one batch, all 2048 rows), `P2` and `P3` the two halves of the
  transposed read-out matrix and `P4` the bias, entry (r, s) of the first stored value is the attention weight
  of context row `s` for query row `r`, and entry (r, e) of the second is the read-out of query row `r` at
  column `e`. Roundings to a narrower format are the identity on the extended reals; each matrix-unit product
  into a zero accumulator is a plain sum of products; a lane maximum from −∞ is the row maximum and a lane sum
  from zero the row sum; a column of per-row values spread over the lanes reads the row's value.
-/
import proofs.«108238_j42185168781993_2_alg».proof.Proof.Gen.KernelIdeal.Skeleton
import proofs.«108238_j42185168781993_2_alg».proof.Proof.Spec
import proofs.«108238_j42185168781993_2_alg».proof.Proof.LibMatSum
import Idealize.ShloMosaic.Lib.Pipeline.Value
import Idealize.ShloMosaic.Lib.ValueIdx
import Idealize.ShloMosaic.Lib.ValueLayout
import Idealize.ShloMosaic.PureOps.Ideal.Laws

noncomputable section

namespace Cert.Attention.Ker

open Cert.KernelIdeal Cert.KernelIdeal.Gen
open Idealize.ShloMosaic Idealize.ShloMosaic.TcCoe Idealize.ShloMosaic.ValueIdx Cert.Attention

variable (P0 : Vec Ideal S1x256x1024 .f32) (P1 : Vec Ideal S1x2048x1024 .bf16)
variable (P2 P3 : Vec Ideal S1024x1024 .bf16) (P4 : Vec Ideal S1024 .f32)

/-- Row `r` of the query block. -/
def qk (r : Fin 256) : Fin 1024 → EReal := fun d => P0 (ix3 (0 : Fin 1) r d)

/-- The context block as a matrix. -/
def ck : Fin 2048 → Fin 1024 → EReal := fun s d => P1 (ix3 (0 : Fin 1) s d)

/-! ## The loaded blocks without their unit axis -/

theorem pay3_at (r : Fin 256) (d : Fin 1024) : k0_pay3 P0 (ix2 r d) = qk P0 r d := by
  unfold k0_pay3 qk
  exact shapeCast_1ab_ab_apply P0 shapeCasts_S1x256x1024_S256x1024 r d

theorem pay2_at (s : Fin 2048) (d : Fin 1024) : k0_pay2 P1 (ix2 s d) = ck P1 s d := by
  unfold k0_pay2 ck
  exact shapeCast_1ab_ab_apply P1 shapeCasts_S1x2048x1024_S2048x1024 s d

/-! ## A per-row value spread over the lanes -/

/-- A vector of 256 per-row values, cast to a column and broadcast over 2048 lanes. -/
def colOf (v : FVec Ideal S256 .f32) : FVec Ideal S256x2048 .f32 :=
  broadcastTo S256x2048 (shapeCast S256x1 v shapeCasts_S256_S256x1) broadcasts_S256x1_S256x2048

/-- It reads, at (r, s), the value of row `r`. -/
theorem colOf_apply (v : FVec Ideal S256 .f32) (r : Fin 256) (s : Fin 2048) : colOf v (ix2 r s) = v (ix1 r) := by
  unfold colOf
  refine (broadcastTo_apply _ broadcasts_S256x1_S256x2048 (ix2 r s) (ix2 r (0 : Fin 1)) fun a => ?_).trans ?_
  · match a with
    | ⟨0, _⟩ => show r.val = if (256 : Nat) = 1 then 0 else r.val; rw [if_neg (by decide)]
    | ⟨1, _⟩ => show 0 = if (1 : Nat) = 1 then 0 else s.val; rw [if_pos rfl]
  · exact shapeCast_apply _ shapeCasts_S256_S256x1 (ix2 r (0 : Fin 1)) (ix1 r) (by
      rw [Shape.rowMajor_val_one, Shape.rowMajor_val_two]; show r.val = r.val * 1 + 0; omega)

/-! ## The lane reductions -/

/-- The lane maximum from −∞ of a [256, 2048] vector, at row `r`, is that row's maximum. -/
theorem laneMax_apply (x : FVec Ideal S256x2048 .f32) (h : S256x2048.Reduces [1] S256) (hφ : FKind.Formats .f32)
    (hacc : (0xFF800000#32 : BitVec 32) = FKind.maximumf.neutral .f32 hφ) (r : Fin 256) :
    multiReduction .maximumf [1] S256 x 0xFF800000#32 h hφ hacc (ix1 r) = rowMax (fun s => x (ix2 r s)) := by
  refine (Ideal.multiReduction_maximumf_single x 0xFF800000#32 h hφ hacc (ix1 r)).trans ?_
  unfold rowMax
  have hf : ((x ∘ h.lift (ix1 r)) : Fin 2048 → EReal) = fun s => x (ix2 r s) :=
    funext fun (k : Fin 2048) => congrArg x (funext fun a => Fin.ext (by
      match a with | ⟨0, _⟩ => rfl | ⟨1, _⟩ => rfl))
  exact congrArg (fun f => Finset.fold max floor f (Finset.univ : Finset (Fin 2048))) hf

/-- The lane sum from zero of a [256, 2048] vector, at row `r`, is that row's sum. -/
theorem laneSum_apply (x : FVec Ideal S256x2048 .f32) (h : S256x2048.Reduces [1] S256) (hφ : FKind.Formats .f32)
    (hacc : (0x00000000#32 : BitVec 32) = FKind.add.neutral .f32 hφ) (r : Fin 256) :
    multiReduction .add [1] S256 x 0x00000000#32 h hφ hacc (ix1 r) = ∑ s : Fin 2048, x (ix2 r s) := by
  refine (Ideal.multiReduction_add_single x 0x00000000#32 h hφ hacc (ix1 r)).trans ?_
  refine Finset.sum_congr rfl fun (k : Fin 2048) _ => congrArg x (funext fun a => Fin.ext (by
    match a with | ⟨0, _⟩ => rfl | ⟨1, _⟩ => rfl))

/-! ## The scores: the query block against the context block's rows -/

/-- The first matrix-unit product: both operands contracted along their columns. -/
def scoresK : FVec Ideal S256x2048 .f32 :=
  matmul dot_S256x1024_S2048x1024_S256x2048_1_1_0_0_n_n none (k0_pay3 P0) (k0_pay2 P1) (constant S256x2048 .f32 0x00000000#32)

theorem scores_lhs0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide),
    dif_pos (show (0 : Fin S256x1024.rank) ∈ dot_S256x1024_S2048x1024_S256x2048_1_1_0_0_n_n.lhsNonContracting by decide)]
  rfl

theorem scores_rhs0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide),
    dif_pos (show (0 : Fin S2048x1024.rank) ∈ dot_S256x1024_S2048x1024_S256x2048_1_1_0_0_n_n.rhsNonContracting by decide)]
  rfl

/-- Entry (r, s) of the scores is the score of context row `s` against query row `r`. -/
theorem scoresK_at (r : Fin 256) (s : Fin 2048) : scoresK P0 P1 (ix2 r s) = score (qk P0 r) (ck P1) s := by
  unfold scoresK
  show FloatOps.matmul dot_S256x1024_S2048x1024_S256x2048_1_1_0_0_n_n none (k0_pay3 P0) (k0_pay2 P1)
    (constant S256x2048 .f32 0x00000000#32) (ix2 r s) = _
  rw [Ideal.matmul_constant_zero_apply,
    ← Equiv.sum_comp (contrEquiv1 dot_S256x1024_S2048x1024_S256x2048_1_1_0_0_n_n 1024 rfl rfl).symm]
  unfold score
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 r s)
      ((contrEquiv1 dot_S256x1024_S2048x1024_S256x2048_1_1_0_0_n_n 1024 rfl rfl).symm k) = ix2 r k :=
    funext fun a => Fin.ext (by
      match a with
      | ⟨0, _⟩ => exact scores_lhs0 _ _
      | ⟨1, _⟩ => exact (dot_S256x1024_S2048x1024_S256x2048_1_1_0_0_n_n.lhsIdx_val_of_single rfl _ _).trans hk)
  have er : dot_S256x1024_S2048x1024_S256x2048_1_1_0_0_n_n.rhsIdx (ix2 r s)
      ((contrEquiv1 dot_S256x1024_S2048x1024_S256x2048_1_1_0_0_n_n 1024 rfl rfl).symm k) = ix2 s k :=
    funext fun a => Fin.ext (by
      match a with
      | ⟨0, _⟩ => exact scores_rhs0 _ _
      | ⟨1, _⟩ => exact (dot_S256x1024_S2048x1024_S256x2048_1_1_0_0_n_n.rhsIdx_val_of_single rfl _ _).trans hk)
  rw [el, er, pay3_at, pay2_at]

/-! ## The softmax over each row of scores -/

def rowMaxK : FVec Ideal S256 .f32 :=
  multiReduction .maximumf [1] S256 (scoresK P0 P1) 0xFF800000#32 reduces_S256x2048_S256 (.inl rfl) rfl

def expoK : FVec Ideal S256x2048 .f32 := exp (subf (scoresK P0 P1) (colOf (rowMaxK P0 P1)))

def denomK : FVec Ideal S256 .f32 :=
  multiReduction .add [1] S256 (expoK P0 P1) 0x00000000#32 reduces_S256x2048_S256 (.inl rfl) rfl

/-- The first stored value is the exponentials over their row sums. -/
theorem pay4_form : k0_pay4 P0 P1 = divf (expoK P0 P1) (colOf (denomK P0 P1)) := rfl

theorem rowMaxK_at (r : Fin 256) : rowMaxK P0 P1 (ix1 r) = rowMax (score (qk P0 r) (ck P1)) := by
  unfold rowMaxK
  refine (laneMax_apply (scoresK P0 P1) _ _ _ r).trans ?_
  exact congrArg rowMax (funext fun s => scoresK_at P0 P1 r s)

theorem expoK_at (r : Fin 256) (s : Fin 2048) :
    expoK P0 P1 (ix2 r s) = Ideal.exp (score (qk P0 r) (ck P1) s - rowMax (score (qk P0 r) (ck P1))) := by
  show Ideal.exp (scoresK P0 P1 (ix2 r s) - colOf (rowMaxK P0 P1) (ix2 r s)) = _
  rw [colOf_apply, scoresK_at, rowMaxK_at]

theorem denomK_at (r : Fin 256) :
    denomK P0 P1 (ix1 r) = ∑ s : Fin 2048, Ideal.exp (score (qk P0 r) (ck P1) s - rowMax (score (qk P0 r) (ck P1))) := by
  unfold denomK
  refine (laneSum_apply (expoK P0 P1) _ _ _ r).trans ?_
  exact Finset.sum_congr rfl fun s _ => expoK_at P0 P1 r s

/-- Entry (r, s) of the first stored value is the attention weight. -/
theorem pay4_at (r : Fin 256) (s : Fin 2048) : k0_pay4 P0 P1 (ix2 r s) = weight (qk P0 r) (ck P1) s := by
  rw [pay4_form]
  show Ideal.div (expoK P0 P1 (ix2 r s)) (colOf (denomK P0 P1) (ix2 r s)) = _
  rw [colOf_apply, expoK_at, denomK_at]
  rfl

/-! ## The mixed rows and the read-out -/

def mixK : FVec Ideal S256x1024 .f32 :=
  matmul dot_S256x2048_S2048x1024_S256x1024_1_0_0_1_n_n none (truncf .bf16 (k0_pay4 P0 P1) bitsLt_bf16_f32) (k0_pay2 P1)
    (constant S256x1024 .f32 0x00000000#32)

def lowK : FVec Ideal S256x1024 .f32 :=
  matmul dot_S256x1024_S1024x1024_S256x1024_1_0_0_1_n_n none (truncf .bf16 (mixK P0 P1) bitsLt_bf16_f32)
    (shapeCast S1024x1024 P2 shapeCasts_S1024x1024_S1024x1024 : FVec Ideal S1024x1024 .bf16) (constant S256x1024 .f32 0x00000000#32)

def highK : FVec Ideal S256x1024 .f32 :=
  matmul dot_S256x1024_S1024x1024_S256x1024_1_0_0_1_n_n none (k0_pay3 P0)
    (shapeCast S1024x1024 P3 shapeCasts_S1024x1024_S1024x1024 : FVec Ideal S1024x1024 .bf16) (constant S256x1024 .f32 0x00000000#32)

def biasK : FVec Ideal S256x1024 .f32 :=
  broadcastTo S256x1024 (shapeCast S1x1024 P4 shapeCasts_S1024_S1x1024 : FVec Ideal S1x1024 .f32) broadcasts_S1x1024_S256x1024

/-- The second stored value: the hyperbolic tangent of the two half products and the bias added. -/
theorem pay6_form : k0_pay6 P0 P1 P2 P3 P4 = tanh (addf (addf (lowK P0 P1 P2) (highK P0 P3)) (biasK P4)) := rfl

theorem mixK_at (r : Fin 256) (d : Fin 1024) : mixK P0 P1 (ix2 r d) = mixed (qk P0 r) (ck P1) d := by
  unfold mixK mixed
  refine (MatSum.matmul_zero_entry (m := 256) (k := 2048) (n := 1024) dot_S256x2048_S2048x1024_S256x1024_1_0_0_1_n_n_wf none
    (truncf .bf16 (k0_pay4 P0 P1) bitsLt_bf16_f32) (k0_pay2 P1) r d).trans ?_
  refine Finset.sum_congr rfl fun c _ => ?_
  show k0_pay4 P0 P1 (ix2 r c) * k0_pay2 P1 (ix2 c d) = _
  rw [pay4_at, pay2_at]

theorem lowK_at (r : Fin 256) (e : Fin 1024) :
    lowK P0 P1 P2 (ix2 r e) = ∑ d : Fin 1024, mixed (qk P0 r) (ck P1) d * P2 (ix2 d e) := by
  unfold lowK
  refine (MatSum.matmul_zero_entry (m := 256) (k := 1024) (n := 1024) dot_S256x1024_S1024x1024_S256x1024_1_0_0_1_n_n_wf none
    (truncf .bf16 (mixK P0 P1) bitsLt_bf16_f32) (shapeCast S1024x1024 P2 shapeCasts_S1024x1024_S1024x1024 : FVec Ideal S1024x1024 .bf16) r e).trans ?_
  refine Finset.sum_congr rfl fun c _ => ?_
  show mixK P0 P1 (ix2 r c) * (shapeCast S1024x1024 P2 shapeCasts_S1024x1024_S1024x1024 : FVec Ideal S1024x1024 .bf16) (ix2 c e) = _
  rw [mixK_at, shapeCast_self]

theorem highK_at (r : Fin 256) (e : Fin 1024) :
    highK P0 P3 (ix2 r e) = ∑ d : Fin 1024, qk P0 r d * P3 (ix2 d e) := by
  unfold highK
  refine (MatSum.matmul_zero_entry (m := 256) (k := 1024) (n := 1024) dot_S256x1024_S1024x1024_S256x1024_1_0_0_1_n_n_wf none
    (k0_pay3 P0) (shapeCast S1024x1024 P3 shapeCasts_S1024x1024_S1024x1024 : FVec Ideal S1024x1024 .bf16) r e).trans ?_
  refine Finset.sum_congr rfl fun c _ => ?_
  rw [pay3_at, shapeCast_self]

theorem biasK_at (r : Fin 256) (e : Fin 1024) : biasK P4 (ix2 r e) = P4 (ix1 e) := by
  unfold biasK
  rw [broadcastTo_1b_ab_apply, shapeCast_a_1a_apply]

/-- Entry (r, e) of the second stored value is the read-out. -/
theorem pay6_at (r : Fin 256) (e : Fin 1024) :
    k0_pay6 P0 P1 P2 P3 P4 (ix2 r e)
      = readout (qk P0 r) (ck P1) (fun d e => P2 (ix2 d e)) (fun d e => P3 (ix2 d e)) (fun e => P4 (ix1 e)) e := by
  rw [pay6_form]
  show Ideal.tanh ((lowK P0 P1 P2 (ix2 r e) + highK P0 P3 (ix2 r e)) + biasK P4 (ix2 r e)) = _
  rw [lowK_at, highK_at, biasK_at]
  rfl

end Cert.Attention.Ker

end
-- ==== Proof.Blocks.lean ====
/-
  From blocks to arrays. The grid has one point per (batch, block of 256 query rows). At a point the query
  window holds rows 256·j … 256·j + 255 of batch b of the first argument, the context window the whole batch b
  of the second (through a change of format, the identity here), the read-out window the transposed third
  argument and the bias window the fourth; the point writes back rows 256·j … of batch b of each result. So
  what a point writes back is that block of ONE function of the four argument arrays (the attention weights,
  the read-out), and since the blocks tile the result arrays, each result array ends as that function.
-/
import proofs.«108238_j42185168781993_2_alg».proof.Proof.Gen.KernelIdeal.Value
import proofs.«108238_j42185168781993_2_alg».proof.Proof.KernelRows
import proofs.«108238_j42185168781993_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.Attention.Blocks

open Cert.KernelIdeal Cert.KernelIdeal.Gen Cert.KernelIdeal.Value
open Idealize.ShloMosaic Idealize.ShloMosaic.TcCoe Idealize.SL.Sem Idealize.ShloMosaic.ValueIdx Cert.Attention
open Idealize.ShloMosaic.Pipeline (Dat)

variable (m : (ℓ : Loc nD τ sig) → Buf (Elt Ideal) ℓ) (ρ : Dev nD → PrngReg)

/-! ## The four arguments as arrays of extended reals -/

abbrev argQ (c : Dev nD) : S16x2048x1024.Idx → EReal := m ((c : Thread nD τ).loc main_arg0)
abbrev argC (c : Dev nD) : S16x2048x1024.Idx → EReal := m ((c : Thread nD τ).loc main_arg1)
abbrev argW (c : Dev nD) : S1024x2048.Idx → EReal := m ((c : Thread nD τ).loc main_arg2)
abbrev argB (c : Dev nD) : S1024.Idx → EReal := m ((c : Thread nD τ).loc main_arg3)

/-! ## What the host wrote before the region -/

/-- The context in the narrower format is the context. -/
theorem V_ctx (c : Dev nD) : (V m c main_v0 : S16x2048x1024.Idx → EReal) = argC m c := by
  dsimp only [Gen.V, Gen.hostOps0]; after_results; rfl

/-- The read-out matrix, transposed and in the narrower format, at (k, e) is the matrix at (e, k). -/
theorem V_wt (c : Dev nD) (k : Fin 2048) (e : Fin 1024) :
    (V m c main_v2 : S2048x1024.Idx → EReal) (ix2 k e) = argW m c (ix2 e k) := by
  have h : (V m c main_v2 : S2048x1024.Idx → EReal)
      = transpose S2048x1024 [1, 0] (argW m c) transposes_S1024x2048_S2048x1024_1_0 := by
    dsimp only [Gen.V, Gen.hostOps0]; after_results; rfl
  rw [h]
  exact transpose_ix2_apply (argW m c) transposes_S1024x2048_S2048x1024_1_0 k e

/-! ## The index maps over the grid -/

theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (2 : Fin 3) = 0
    ∧ win0_5.index t (0 : Fin 3) = win0_4.index t (0 : Fin 3) ∧ win0_5.index t (1 : Fin 3) = win0_4.index t (1 : Fin 3)
    ∧ win0_5.index t (2 : Fin 3) = 0
    ∧ win0_4.index t (0 : Fin 3) < 16 ∧ win0_4.index t (1 : Fin 3) < 8 :=
  (by decide +kernel : ∀ t : Fin grid0.N, _)

/-- Every (batch, row block) is some point's. -/
theorem idx_onto : ∀ (q0 : Fin 16) (q1 : Fin 8), ∃ t : Fin cfg0.N,
    win0_4.index t (0 : Fin 3) = q0.val ∧ win0_4.index t (1 : Fin 3) = q1.val :=
  (by decide +kernel : ∀ (q0 : Fin 16) (q1 : Fin 8), ∃ t : Fin grid0.N,
    win0_4.index t (0 : Fin 3) = q0.val ∧ win0_4.index t (1 : Fin 3) = q1.val)

/-! ## The input blocks at a point -/

/-- The query block at a point: row `r` of the block is row 256·j + r of batch b. -/
theorem iblk0_at (c : Dev nD) (t : Fin cfg0.N) (r : Fin 256) (d : Fin 1024) (b : Fin 16) (tt : Fin 2048)
    (hb : b.val = win0_4.index t (0 : Fin 3)) (ht : tt.val = win0_4.index t (1 : Fin 3) * 256 + r.val) :
    (iblk m c 0 t : Vec Ideal S1x256x1024 .f32) (ix3 (0 : Fin 1) r d) = argQ m c (ix3 b tt d) := by
  obtain ⟨f00, f01, f02, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * 0 = b.val; omega
  | ⟨1, _⟩ => show win0_0.index t (1 : Fin 3) * 256 + 1 * r.val = tt.val; omega
  | ⟨2, _⟩ => show win0_0.index t (2 : Fin 3) * 1024 + 1 * d.val = d.val; omega

/-- The context block at a point is batch b of the context. -/
theorem iblk1_at (c : Dev nD) (t : Fin cfg0.N) (s : Fin 2048) (d : Fin 1024) (b : Fin 16)
    (hb : b.val = win0_4.index t (0 : Fin 3)) :
    (iblk m c 1 t : Vec Ideal S1x2048x1024 .bf16) (ix3 (0 : Fin 1) s d) = argC m c (ix3 b s d) := by
  obtain ⟨-, -, -, f10, f11, f12, -⟩ := idx_facts t
  unfold iblk
  rw [View.read_apply]
  show (V m c main_v0 : S16x2048x1024.Idx → EReal) _ = _
  rw [V_ctx]
  refine congrArg (argC m c) (funext fun a => Fin.ext ?_)
  match a with
  | ⟨0, _⟩ => show win0_1.index t (0 : Fin 3) * 1 + 1 * 0 = b.val; omega
  | ⟨1, _⟩ => show win0_1.index t (1 : Fin 3) * 2048 + 1 * s.val = s.val; omega
  | ⟨2, _⟩ => show win0_1.index t (2 : Fin 3) * 1024 + 1 * d.val = d.val; omega

/-- The read-out window at a point is the transposed matrix. -/
theorem iblk2_at (c : Dev nD) (t : Fin cfg0.N) (k : Fin 2048) (e : Fin 1024) :
    (iblk m c 2 t : Vec Ideal S2048x1024 .bf16) (ix2 k e) = argW m c (ix2 e k) := by
  obtain ⟨-, -, -, -, -, -, f20, f21, -⟩ := idx_facts t
  unfold iblk
  rw [View.read_apply]
  show (V m c main_v2 : S2048x1024.Idx → EReal) _ = _
  refine Eq.trans (congrArg (V m c main_v2 : S2048x1024.Idx → EReal) (funext fun a => Fin.ext ?_)) (V_wt m c k e)
  match a with
  | ⟨0, _⟩ => show win0_2.index t (0 : Fin 2) * 2048 + 1 * k.val = k.val; omega
  | ⟨1, _⟩ => show win0_2.index t (1 : Fin 2) * 1024 + 1 * e.val = e.val; omega

/-- The bias window at a point is the bias. -/
theorem iblk3_at (c : Dev nD) (t : Fin cfg0.N) (e : Fin 1024) :
    (iblk m c 3 t : Vec Ideal S1024 .f32) (ix1 e) = argB m c (ix1 e) := by
  obtain ⟨-, -, -, -, -, -, -, -, f30, -⟩ := idx_facts t
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t (0 : Fin 1) * 1024 + 1 * e.val = e.val; omega

/-- The query block's row `r` is row 256·j + r of batch b of the first argument. -/
theorem qk_blk (c : Dev nD) (t : Fin cfg0.N) (r : Fin 256) (b : Fin 16) (tt : Fin 2048)
    (hb : b.val = win0_4.index t (0 : Fin 3)) (ht : tt.val = win0_4.index t (1 : Fin 3) * 256 + r.val) :
    Ker.qk (iblk m c 0 t) r = qRow (argQ m c) b tt :=
  funext fun d => iblk0_at m c t r d b tt hb ht

/-- The context block is batch b of the second argument. -/
theorem ck_blk (c : Dev nD) (t : Fin cfg0.N) (b : Fin 16) (hb : b.val = win0_4.index t (0 : Fin 3)) :
    Ker.ck (iblk m c 1 t) = cMat (argC m c) b :=
  funext fun s => funext fun d => iblk1_at m c t s d b hb

theorem hz3 : (![0, 0, 0] : Fin 3 → Nat) = fun _ => 0 := funext fun a => by fin_cases a <;> rfl
theorem hz1 : (![0] : Fin 1 → Nat) = fun _ => 0 := funext fun a => by fin_cases a <;> rfl

/-- The first 1024 rows of the read-out window, at (d, e): the matrix at (e, d). -/
theorem wlow_blk (c : Dev nD) (t : Fin cfg0.N) :
    (fun (d e : Fin 1024) => (View.ld (iblk m c 2 t : Vec Ideal S2048x1024 .bf16) r0_3) (ix2 d e)) = wLow (argW m c) :=
  funext fun d => funext fun e => by
    show (iblk m c 2 t : Vec Ideal S2048x1024 .bf16) (r0_3.idx (ix2 d e)) = _
    refine Eq.trans (congrArg (iblk m c 2 t : Vec Ideal S2048x1024 .bf16) (funext fun a => Fin.ext ?_))
      (iblk2_at m c t (⟨d.val, by omega⟩ : Fin 2048) e)
    match a with
    | ⟨0, _⟩ => show 0 + 1 * d.val = d.val; omega
    | ⟨1, _⟩ => show 0 + 1 * e.val = e.val; omega

/-- The last 1024 rows of the read-out window, at (d, e): the matrix at (e, 1024 + d). -/
theorem whigh_blk (c : Dev nD) (t : Fin cfg0.N) :
    (fun (d e : Fin 1024) => (View.ld (iblk m c 2 t : Vec Ideal S2048x1024 .bf16) r0_4) (ix2 d e)) = wHigh (argW m c) :=
  funext fun d => funext fun e => by
    show (iblk m c 2 t : Vec Ideal S2048x1024 .bf16) (r0_4.idx (ix2 d e)) = _
    refine Eq.trans (congrArg (iblk m c 2 t : Vec Ideal S2048x1024 .bf16) (funext fun a => Fin.ext ?_))
      (iblk2_at m c t (⟨1024 + d.val, by omega⟩ : Fin 2048) e)
    match a with
    | ⟨0, _⟩ => show 1024 + 1 * d.val = 1024 + d.val; omega
    | ⟨1, _⟩ => show 0 + 1 * e.val = e.val; omega

/-! ## What a point writes back -/

/-- To the weights array: that point's block of the attention weights of the first two arguments. -/
theorem flushed4_eq (c : Dev nD) (t : Fin cfg0.N) :
    (dats m 0 c).flushed 4 t = ((cfg0.win 4).blk t).view.read (Elt Ideal) (weightsArr (argQ m c) (argC m c)) := by
  show (cfg0.win 4).cut (grid0.coords t) ((dats m 0 c).after 4 t) = _
  rw [after0_4]
  unfold out0_4
  simp only [View.ld_unit_zero (S := S1x256x1024) hz3, View.ld_unit_zero (S := S1x2048x1024) hz3]
  funext y
  show View.canon (Val := Elt Ideal) (s := S1x256x2048) (e := EltTy.f32) [⟨r0_2, k0_pay5 (iblk m c 0 t) (iblk m c 1 t)⟩] y
    = weightsArr (argQ m c) (argC m c) (((cfg0.win 4).blk t).view.emb y)
  have hy0 : (y 0).val < 1 := (y 0).isLt
  have hy1 : (y 1).val < 256 := (y 1).isLt
  have hy2 : (y 2).val < 2048 := (y 2).isLt
  obtain ⟨-, -, -, -, -, -, -, -, -, f42, -, -, -, g0, g1⟩ := idx_facts t
  refine (Value.canon4_eq (iblk m c 0 t) (iblk m c 1 t) y).trans ?_
  show k0_pay4 (iblk m c 0 t) (iblk m c 1 t) (ix4_0 y) = _
  rw [show ix4_0 y = ix2 (⟨(y 1).val, hy1⟩ : Fin 256) (⟨(y 2).val, hy2⟩ : Fin 2048) from funext fun a => by
    match a with | ⟨0, _⟩ => rfl | ⟨1, _⟩ => rfl]
  refine (Ker.pay4_at (iblk m c 0 t) (iblk m c 1 t) _ _).trans ?_
  rw [show ((cfg0.win 4).blk t).view.emb y
      = ix3 (⟨win0_4.index t (0 : Fin 3), g0⟩ : Fin 16)
          (⟨win0_4.index t (1 : Fin 3) * 256 + (y 1).val, by omega⟩ : Fin 2048) (⟨(y 2).val, hy2⟩ : Fin 2048) from
    funext fun a => Fin.ext (by
      match a with
      | ⟨0, _⟩ => show win0_4.index t (0 : Fin 3) * 1 + 1 * (y 0).val = win0_4.index t (0 : Fin 3); omega
      | ⟨1, _⟩ => show win0_4.index t (1 : Fin 3) * 256 + 1 * (y 1).val = win0_4.index t (1 : Fin 3) * 256 + (y 1).val; omega
      | ⟨2, _⟩ => show win0_4.index t (2 : Fin 3) * 2048 + 1 * (y 2).val = (y 2).val; omega)]
  have hq := qk_blk m c t (⟨(y 1).val, hy1⟩ : Fin 256) (⟨win0_4.index t (0 : Fin 3), g0⟩ : Fin 16)
    (⟨win0_4.index t (1 : Fin 3) * 256 + (y 1).val, by omega⟩ : Fin 2048) rfl rfl
  have hc := ck_blk m c t (⟨win0_4.index t (0 : Fin 3), g0⟩ : Fin 16) rfl
  show weight (Ker.qk (iblk m c 0 t) _) (Ker.ck (iblk m c 1 t)) _ = weight (qRow (argQ m c) _ _) (cMat (argC m c) _) _
  rw [hq, hc]

/-- To the read-out array: that point's block of the read-out of the four arguments. -/
theorem flushed5_eq (c : Dev nD) (t : Fin cfg0.N) :
    (dats m 0 c).flushed 5 t
      = ((cfg0.win 5).blk t).view.read (Elt Ideal) (resultArr (argQ m c) (argC m c) (argW m c) (argB m c)) := by
  show (cfg0.win 5).cut (grid0.coords t) ((dats m 0 c).after 5 t) = _
  rw [after0_5]
  unfold out0_5
  simp only [View.ld_unit_zero (S := S1x256x1024) hz3, View.ld_unit_zero (S := S1x2048x1024) hz3,
    View.ld_unit_zero (S := S1024) hz1]
  funext y
  show View.canon (Val := Elt Ideal) (s := S1x256x1024) (e := EltTy.f32) [⟨r0_0, k0_pay1 (k0_pay6 (iblk m c 0 t) (iblk m c 1 t) (View.ld (iblk m c 2 t) r0_3)
      (View.ld (iblk m c 2 t) r0_4) (iblk m c 3 t))⟩] y
    = resultArr (argQ m c) (argC m c) (argW m c) (argB m c) (((cfg0.win 5).blk t).view.emb y)
  have hy0 : (y 0).val < 1 := (y 0).isLt
  have hy1 : (y 1).val < 256 := (y 1).isLt
  have hy2 : (y 2).val < 1024 := (y 2).isLt
  obtain ⟨-, -, -, -, -, -, -, -, -, -, f50, f51, f52, g0, g1⟩ := idx_facts t
  refine (Value.canon5_eq (iblk m c 0 t) (iblk m c 1 t) (View.ld (iblk m c 2 t) r0_3)
    (View.ld (iblk m c 2 t) r0_4) (iblk m c 3 t) y).trans ?_
  show k0_pay6 (iblk m c 0 t) (iblk m c 1 t) (View.ld (iblk m c 2 t) r0_3) (View.ld (iblk m c 2 t) r0_4)
    (iblk m c 3 t) (ix5_0 y) = _
  rw [show ix5_0 y = ix2 (⟨(y 1).val, hy1⟩ : Fin 256) (⟨(y 2).val, hy2⟩ : Fin 1024) from funext fun a => by
    match a with | ⟨0, _⟩ => rfl | ⟨1, _⟩ => rfl]
  refine (Ker.pay6_at (iblk m c 0 t) (iblk m c 1 t) (View.ld (iblk m c 2 t) r0_3) (View.ld (iblk m c 2 t) r0_4)
    (iblk m c 3 t) _ _).trans ?_
  rw [show ((cfg0.win 5).blk t).view.emb y
      = ix3 (⟨win0_4.index t (0 : Fin 3), g0⟩ : Fin 16)
          (⟨win0_4.index t (1 : Fin 3) * 256 + (y 1).val, by omega⟩ : Fin 2048) (⟨(y 2).val, hy2⟩ : Fin 1024) from
    funext fun a => Fin.ext (by
      match a with
      | ⟨0, _⟩ => show win0_5.index t (0 : Fin 3) * 1 + 1 * (y 0).val = win0_4.index t (0 : Fin 3); omega
      | ⟨1, _⟩ => show win0_5.index t (1 : Fin 3) * 256 + 1 * (y 1).val = win0_4.index t (1 : Fin 3) * 256 + (y 1).val; omega
      | ⟨2, _⟩ => show win0_5.index t (2 : Fin 3) * 1024 + 1 * (y 2).val = (y 2).val; omega)]
  have hq := qk_blk m c t (⟨(y 1).val, hy1⟩ : Fin 256) (⟨win0_4.index t (0 : Fin 3), g0⟩ : Fin 16)
    (⟨win0_4.index t (1 : Fin 3) * 256 + (y 1).val, by omega⟩ : Fin 2048) rfl rfl
  have hc := ck_blk m c t (⟨win0_4.index t (0 : Fin 3), g0⟩ : Fin 16) rfl
  show readout (Ker.qk (iblk m c 0 t) _) (Ker.ck (iblk m c 1 t))
      (fun d e => (View.ld (iblk m c 2 t : Vec Ideal S2048x1024 .bf16) r0_3) (ix2 d e))
      (fun d e => (View.ld (iblk m c 2 t : Vec Ideal S2048x1024 .bf16) r0_4) (ix2 d e))
      (fun e => (iblk m c 3 t : Vec Ideal S1024 .f32) (ix1 e)) _
    = readout (qRow (argQ m c) _ _) (cMat (argC m c) _) (wLow (argW m c)) (wHigh (argW m c)) (fun e => argB m c (ix1 e)) _
  rw [hq, hc, wlow_blk, whigh_blk,
    show (fun e : Fin 1024 => (iblk m c 3 t : Vec Ideal S1024 .f32) (ix1 e)) = fun e => argB m c (ix1 e) from
      funext fun e => iblk3_at m c t e]

/-! ## The blocks tile the result arrays -/

theorem cover4 (c : Dev nD) (i : S16x2048x2048.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  obtain ⟨t, q0, q1⟩ := idx_onto ⟨(i 0).val, hi0⟩ ⟨(i 1).val / 256, by omega⟩
  obtain ⟨-, -, -, -, -, -, -, -, -, f42, -⟩ := idx_facts t
  refine ⟨t, flush0_4 t, ?_⟩
  show i ∈ ((View.whole main_v3_0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1
              simp only at q0 q1; omega
  | ⟨1, _⟩ => show win0_4.index t (1 : Fin 3) * 256 ≤ (i 1).val ∧ (i 1).val < win0_4.index t (1 : Fin 3) * 256 + 256
              simp only at q0 q1; omega
  | ⟨2, _⟩ => show win0_4.index t (2 : Fin 3) * 2048 ≤ (i 2).val ∧ (i 2).val < win0_4.index t (2 : Fin 3) * 2048 + 2048
              omega

theorem cover5 (c : Dev nD) (i : S16x2048x1024.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 1024 := (i 2).isLt
  obtain ⟨t, q0, q1⟩ := idx_onto ⟨(i 0).val, hi0⟩ ⟨(i 1).val / 256, by omega⟩
  obtain ⟨-, -, -, -, -, -, -, -, -, -, f50, f51, f52, -⟩ := idx_facts t
  refine ⟨t, flush0_5 t, ?_⟩
  show i ∈ ((View.whole main_v3_1).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1
              simp only at q0 q1; omega
  | ⟨1, _⟩ => show win0_5.index t (1 : Fin 3) * 256 ≤ (i 1).val ∧ (i 1).val < win0_5.index t (1 : Fin 3) * 256 + 256
              simp only at q0 q1; omega
  | ⟨2, _⟩ => show win0_5.index t (2 : Fin 3) * 1024 ≤ (i 2).val ∧ (i 2).val < win0_5.index t (2 : Fin 3) * 1024 + 1024
              omega

/-! ## The result arrays after the run -/

theorem final4 (c : Dev nD) : (dats m 0 c).arrAt 4 cfg0.N = weightsArr (argQ m c) (argC m c) :=
  (dats m 0 c).arrAt_eq_of_cover 4 (weightsArr (argQ m c) (argC m c)) (fun t _ => flushed4_eq m c t) (cover4 c)

theorem final5 (c : Dev nD) :
    (dats m 0 c).arrAt 5 cfg0.N = resultArr (argQ m c) (argC m c) (argW m c) (argB m c) :=
  (dats m 0 c).arrAt_eq_of_cover 5 (resultArr (argQ m c) (argC m c) (argW m c) (argB m c))
    (fun t _ => flushed5_eq m c t) (cover5 c)

/-- The kernel's run: the weights array ends at the attention weights of the first two arguments, the read-out
    array at the read-out of all four, the arguments unchanged. -/
theorem run : θ_run defs (onTc (τ := τ) (main (F := Ideal))) ⟨m, fun _ => 0, ρ⟩ fun r => ∀ c : Dev nD,
      r.2.mem ((c : Thread nD τ).loc main_v3_1) = resultArr (argQ m c) (argC m c) (argW m c) (argB m c)
      ∧ r.2.mem ((c : Thread nD τ).loc main_v3_0) = weightsArr (argQ m c) (argC m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).2.1.trans (final5 m c), (h c).1.trans (final4 m c), (h c).2.2⟩)
    (Value.run_blocks m ρ)

end Cert.Attention.Blocks

end
-- ==== Proof.RefRows.lean ====
/-
  The reference program's two results, read entry by entry, are the attention weights and the read-out of
  the specification: its scores are the row-by-row scores, its running maximum (taken once more against −∞,
  which changes nothing) the row maximum, its exponentials and their row sums the softmax's numerator and
  denominator, its second product the mixed rows; the joined array holds the mixed row in its first 1024
  columns and the query row in its last 1024, so its product with the read-out matrix is the sum of the two
  half products (`sum_halves`).
-/
import proofs.«108238_j42185168781993_2_alg».proof.Proof.Gen.ReferenceIdeal.Read
import proofs.«108238_j42185168781993_2_alg».proof.Proof.Spec
import Idealize.ShloMosaic.Lib.Pipeline.Value
import Idealize.ShloMosaic.Lib.ValueIdx
import Idealize.ShloMosaic.PureOps.Ideal.Laws

noncomputable section

namespace Cert.Attention.Ref

open Cert.ReferenceIdeal Cert.ReferenceIdeal.Gen Cert.ReferenceIdeal.Read
open Idealize.ShloMosaic Idealize.ShloMosaic.TcCoe Idealize.ShloMosaic.ValueIdx Cert.Attention

variable (Q C : (⟨S16x2048x1024, .f32⟩ : BufTy).Contents (Elt Ideal))
variable (W : (⟨S1024x2048, .f32⟩ : BufTy).Contents (Elt Ideal)) (B : (⟨S1024, .f32⟩ : BufTy).Contents (Elt Ideal))

/-- The first product at (b, t, s) is the score of context row `s` against query row (b, t). -/
theorem score_at (b : Fin 16) (t s : Fin 2048) :
    val_main_v0 (F := Ideal) Q C (ix3 b t s) = score (qRow Q b t) (cMat C b) s := by
  rw [val_main_v0_apply]
  have el : ∀ k, lidx_main_v0 (ix3 b t s) k = ix3 b t k := fun k => funext fun a => by
    match a with | ⟨0, _⟩ => rfl | ⟨1, _⟩ => rfl | ⟨2, _⟩ => rfl
  have er : ∀ k, ridx_main_v0 (ix3 b t s) k = ix3 b s k := fun k => funext fun a => by
    match a with | ⟨0, _⟩ => rfl | ⟨1, _⟩ => rfl | ⟨2, _⟩ => rfl
  simp only [el, er]
  rfl

/-- The running maximum over a row of scores, taken once more against −∞, is the row maximum. -/
theorem rowmax_at (b : Fin 16) (t : Fin 2048) :
    val_main_v3 (F := Ideal) Q C (ix2 b t) = rowMax (score (qRow Q b t) (cMat C b)) := by
  have h : (S16x2048x2048 : Shape).Reduces [2] S16x2048 := by decide
  rw [val_main_v3_apply, val_main_v2_apply, val_main_cst_0_apply]
  show max floor (val_main_v1 (F := Ideal) Q C (ix2 b t)) = _
  rw [max_floor]
  unfold val_main_v1
  rw [Host.reduce_eq_fold_single FloatOps.maximumf _ _ reducesTo_S16x2048x2048_S16x2048_d2 h h_S_]
  unfold rowMax
  have hf : ((val_main_v0 (F := Ideal) Q C) ∘ h.lift (ix2 b t) : Fin 2048 → EReal) = score (qRow Q b t) (cMat C b) :=
    funext fun (k : Fin 2048) => by
      show val_main_v0 (F := Ideal) Q C (h.lift (ix2 b t) k) = _
      rw [show h.lift (ix2 b t) k = ix3 b t k from funext fun a => Fin.ext (by
        match a with | ⟨0, _⟩ => rfl | ⟨1, _⟩ => rfl | ⟨2, _⟩ => rfl), score_at]
  exact congrArg (fun f => Finset.fold max floor f (Finset.univ : Finset (Fin 2048))) hf

/-- The exponential at (b, t, s): of the score less the row maximum. -/
theorem expo_at (b : Fin 16) (t s : Fin 2048) :
    val_main_v7 (F := Ideal) Q C (ix3 b t s)
      = Ideal.exp (score (qRow Q b t) (cMat C b) s - rowMax (score (qRow Q b t) (cMat C b))) := by
  rw [val_main_v7_apply, val_main_v6_apply, val_main_v5_apply, val_main_v4_apply,
    show idx_main_v4 (idx_main_v5 (ix3 b t s)) = ix2 b t from funext fun a => by
      match a with | ⟨0, _⟩ => rfl | ⟨1, _⟩ => rfl,
    rowmax_at, score_at]
  rfl

/-- The row sum of the exponentials. -/
theorem denom_at (b : Fin 16) (t : Fin 2048) :
    val_main_v8 (F := Ideal) Q C (ix2 b t)
      = ∑ s : Fin 2048, Ideal.exp (score (qRow Q b t) (cMat C b) s - rowMax (score (qRow Q b t) (cMat C b))) := by
  rw [val_main_v8_apply, val_main_cst_1_apply]
  show Ideal.ofBits .f32 0x00000000#32 + _ = _
  rw [Ideal.ofBits_zero_f32, zero_add]
  refine Finset.sum_congr rfl fun k _ => ?_
  rw [show idx_main_v8 (ix2 b t) k = ix3 b t k from funext fun a => by
    match a with | ⟨0, _⟩ => rfl | ⟨1, _⟩ => rfl | ⟨2, _⟩ => rfl, expo_at]

/-- The quotient at (b, t, s) is the attention weight. -/
theorem weight_at (b : Fin 16) (t s : Fin 2048) :
    val_main_v11 (F := Ideal) Q C (ix3 b t s) = weight (qRow Q b t) (cMat C b) s := by
  rw [val_main_v11_apply, val_main_v10_apply, val_main_v9_apply,
    show idx_main_v9 (idx_main_v10 (ix3 b t s)) = ix2 b t from funext fun a => by
      match a with | ⟨0, _⟩ => rfl | ⟨1, _⟩ => rfl,
    denom_at, expo_at]
  rfl

/-- The second product at (b, t, d) is the mixed row. -/
theorem mixed_at (b : Fin 16) (t : Fin 2048) (d : Fin 1024) :
    val_main_v12 (F := Ideal) Q C (ix3 b t d) = mixed (qRow Q b t) (cMat C b) d := by
  rw [val_main_v12_apply]
  refine Finset.sum_congr rfl fun k _ => ?_
  rw [show lidx_main_v12 (ix3 b t d) k = ix3 b t k from funext fun a => by
      match a with | ⟨0, _⟩ => rfl | ⟨1, _⟩ => rfl | ⟨2, _⟩ => rfl,
    show ridx_main_v12 (ix3 b t d) k = ix3 b k d from funext fun a => by
      match a with | ⟨0, _⟩ => rfl | ⟨1, _⟩ => rfl | ⟨2, _⟩ => rfl,
    weight_at]
  rfl

/-- The joined array holds the mixed row in its first 1024 columns … -/
theorem joined_low (b : Fin 16) (t : Fin 2048) (d : Fin 1024) :
    val_main_v13 (F := Ideal) Q C (ix3 b t (⟨d.val, by omega⟩ : Fin 2048)) = mixed (qRow Q b t) (cMat C b) d := by
  unfold val_main_v13
  rw [concatenate_pair_apply_left (t := S16x2048x2048) (s₁ := S16x2048x1024) (s₂ := S16x2048x1024) (2 : Fin 3) _ _
    concatenates_S16x2048x1024_S16x2048x1024_S16x2048x2048_d2
    (ix3 b t (⟨d.val, by omega⟩ : Fin 2048)) rfl (ix3 b t d : S16x2048x1024.Idx) (fun a => by
      match a with | ⟨0, _⟩ => rfl | ⟨1, _⟩ => rfl | ⟨2, _⟩ => rfl)]
  exact mixed_at Q C b t d

/-- … and the query row in its last 1024. -/
theorem joined_high (b : Fin 16) (t : Fin 2048) (d : Fin 1024) :
    val_main_v13 (F := Ideal) Q C (ix3 b t (⟨1024 + d.val, by omega⟩ : Fin 2048)) = qRow Q b t d := by
  unfold val_main_v13
  exact concatenate_pair_apply_right (t := S16x2048x2048) (s₁ := S16x2048x1024) (s₂ := S16x2048x1024) (2 : Fin 3) _ _
    concatenates_S16x2048x1024_S16x2048x1024_S16x2048x2048_d2
    (ix3 b t (⟨1024 + d.val, by omega⟩ : Fin 2048)) rfl rfl (ix3 b t d : S16x2048x1024.Idx) (fun a ha => by
      match a with
      | ⟨0, _⟩ => rfl
      | ⟨1, _⟩ => rfl
      | ⟨2, _⟩ => exact absurd rfl ha) (by show d.val + 1024 = 1024 + d.val; omega)

/-- The product with the read-out matrix is the two half products added. -/
theorem linear_at (b : Fin 16) (t : Fin 2048) (e : Fin 1024) :
    val_main_v14 (F := Ideal) Q C W (ix3 b t e)
      = ∑ d : Fin 1024, mixed (qRow Q b t) (cMat C b) d * wLow W d e + ∑ d : Fin 1024, qRow Q b t d * wHigh W d e := by
  rw [val_main_v14_apply, sum_halves]
  have el : ∀ k, lidx_main_v14 (ix3 b t e) k = ix3 b t k := fun k => funext fun a => by
    match a with | ⟨0, _⟩ => rfl | ⟨1, _⟩ => rfl | ⟨2, _⟩ => rfl
  have er : ∀ k, ridx_main_v14 (ix3 b t e) k = ix2 e k := fun k => funext fun a => by
    match a with | ⟨0, _⟩ => rfl | ⟨1, _⟩ => rfl
  simp only [el, er, joined_low, joined_high]
  rfl

/-- The second result at (b, t, e) is the read-out. -/
theorem result_at (b : Fin 16) (t : Fin 2048) (e : Fin 1024) :
    val_main_v18 (F := Ideal) Q C W B (ix3 b t e)
      = readout (qRow Q b t) (cMat C b) (wLow W) (wHigh W) (fun e => B (ix1 e)) e := by
  rw [val_main_v18_apply, val_main_v17_apply, val_main_v16_apply, val_main_v15_apply, linear_at,
    show idx_main_v15 (idx_main_v16 (ix3 b t e)) = ix1 e from funext fun a => by
      match a with | ⟨0, _⟩ => rfl]
  rfl

/-- The reference's weights array is the specification's. -/
theorem weights_eq : val_main_v11 (F := Ideal) Q C = weightsArr Q C := funext fun i => by
  obtain ⟨b, t, s, rfl⟩ : ∃ (b : Fin 16) (t s : Fin 2048), i = ix3 b t s := ⟨i 0, i 1, i 2, eq_ix3 i⟩
  exact weight_at Q C b t s

/-- The reference's read-out array is the specification's. -/
theorem result_eq : val_main_v18 (F := Ideal) Q C W B = resultArr Q C W B := funext fun i => by
  obtain ⟨b, t, e, rfl⟩ : ∃ (b : Fin 16) (t : Fin 2048) (e : Fin 1024), i = ix3 b t e := ⟨i 0, i 1, i 2, eq_ix3 i⟩
  exact result_at Q C W B b t e

end Cert.Attention.Ref

end
-- ==== Proof.lean ====
/-
  Dot-product attention (no scaling, no mask) with a linear read-out, tiled over (batch, blocks of 256 query rows),
  against the same computation written with whole-array operations.

  Over the extended reals both programs compute, for every batch b and query row t,
    weights (b, t, s) = exp (⟨q, c_s⟩ − M) / ∑ s', exp (⟨q, c_s'⟩ − M),   M = the largest ⟨q, c_s⟩ (from −∞),
    result  (b, t, e) = tanh (∑ d, mixed_d · W (e, d) + ∑ d, q_d · W (e, 1024 + d) + bias_e),
    mixed_d = ∑ s, weights (b, t, s) · c_s,d ,
  where q is row t of batch b of the first argument and c_s row s of batch b of the second. The tiled program
  rounds its matrix operands to a narrower format (the identity on the extended reals), takes each product in the
  matrix unit from a zero accumulator, and multiplies the mixed row and the query row by the two halves of the
  transposed read-out matrix separately; the other program joins the mixed row and the query row into one row of
  2048 entries and multiplies once, and takes its running maximum once more against −∞. The two agree because a
  sum over 2048 positions is the sum over the first 1024 plus the sum over the last 1024 — a law of any
  commutative monoid, so the inputs' finiteness is never used.

  `Spec` states the two result arrays as functions of the four arguments; `RefRows` reads the whole-array
  program's results entry by entry and finds them; `KernelRows` reads the tiled body's two stored values entry
  by entry over its loaded blocks; `Blocks` places each grid point's blocks in the arrays and shows the blocks
  written back tile the results.
-/
import proofs.«108238_j42185168781993_2_alg».proof.Defs
import proofs.«108238_j42185168781993_2_alg».proof.Proof.Gen.Kernel
import proofs.«108238_j42185168781993_2_alg».proof.Proof.Gen.Kernel.Skeleton
import proofs.«108238_j42185168781993_2_alg».proof.Proof.Gen.Kernel.Launch
import proofs.«108238_j42185168781993_2_alg».proof.Proof.Gen.Kernel.Points
import proofs.«108238_j42185168781993_2_alg».proof.Proof.Gen.Kernel.Frame
import proofs.«108238_j42185168781993_2_alg».proof.Proof.Gen.KernelIdeal
import proofs.«108238_j42185168781993_2_alg».proof.Proof.Gen.KernelIdeal.Skeleton
import proofs.«108238_j42185168781993_2_alg».proof.Proof.Gen.KernelIdeal.Launch
import proofs.«108238_j42185168781993_2_alg».proof.Proof.Gen.KernelIdeal.Points
import proofs.«108238_j42185168781993_2_alg».proof.Proof.Gen.KernelIdeal.Frame
import proofs.«108238_j42185168781993_2_alg».proof.Proof.Gen.ReferenceIdeal
import proofs.«108238_j42185168781993_2_alg».proof.Proof.Gen.Pre_finite_inputs
import proofs.«108238_j42185168781993_2_alg».proof.Proof.Gen.KernelIdeal.Value
import proofs.«108238_j42185168781993_2_alg».proof.Proof.Gen.ReferenceIdeal.Run
import proofs.«108238_j42185168781993_2_alg».proof.Proof.Gen.ReferenceIdeal.Read
import proofs.«108238_j42185168781993_2_alg».proof.Proof.Blocks
import proofs.«108238_j42185168781993_2_alg».proof.Proof.RefRows
import Idealize.ShloMosaic.Adequacy
import Idealize.ShloMosaic.Init

noncomputable section

namespace Cert.Proof

open Idealize.ShloMosaic Idealize.SL.Sem

/-- The tiled program, on words, runs and leaves its arguments as they were. -/
theorem frame_k : Cert.frame_Kernel := fun m ρ _ => Cert.Kernel.Gen.frame m ρ

/-- The same on extended reals. -/
theorem frame_ki : Cert.frame_KernelIdeal := fun m ρ _ => Cert.KernelIdeal.Gen.frame m ρ

/-- The whole-array program runs and leaves its arguments as they were: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten on the way to the extended reals. -/
theorem preserves : Cert.preserves_Kernel_KernelIdeal := trivial

/-- From memories agreeing on the four arguments both programs end with the read-out array and the weights
    array of the specification. -/
theorem algebraic : Cert.algebraic_KernelIdeal_ReferenceIdeal := by
  intro m ρ m' ρ' _ hagree
  refine ⟨fun c => Cert.Attention.resultArr (Cert.Attention.Blocks.argQ m c) (Cert.Attention.Blocks.argC m c)
      (Cert.Attention.Blocks.argW m c) (Cert.Attention.Blocks.argB m c),
    fun c => Cert.Attention.weightsArr (Cert.Attention.Blocks.argQ m c) (Cert.Attention.Blocks.argC m c),
    Cert.Attention.Blocks.run m ρ, ?_⟩
  refine (θ_run Cert.ReferenceIdeal.defs _ _).mono (fun _ h c => ⟨?_, ?_, (h c).2.2⟩)
    (Cert.ReferenceIdeal.Value.run (F := Ideal) m' ρ')
  · refine (h c).1.trans ?_
    refine (Cert.ReferenceIdeal.Read.val_main_v18_eq (F := Ideal) _ _ _ _).trans ?_
    rw [Cert.Attention.Ref.result_eq, (hagree c).1, (hagree c).2.1, (hagree c).2.2.1, (hagree c).2.2.2]
  · refine (h c).2.1.trans ?_
    refine (Cert.ReferenceIdeal.Read.val_main_v11_eq (F := Ideal) _ _).trans ?_
    rw [Cert.Attention.Ref.weights_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
